-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x1 : Shape := ⟨3, ![8, 8192, 1]⟩
abbrev S100x1 : Shape := ⟨2, ![100, 1]⟩
abbrev S100 : Shape := ⟨1, ![100]⟩
abbrev S100x100 : Shape := ⟨2, ![100, 100]⟩
abbrev S100x512 : Shape := ⟨2, ![100, 512]⟩
abbrev S_ : Shape := ⟨0, ![]⟩

class Facts : Prop where
  bcast_S_S8x8192x1 : S_.BroadcastsInDim S8x8192x1 (![] : Fin 0 → Fin S8x8192x1.rank)
  reducesTo_S8x8192x1_S_d0_1_2 : S8x8192x1.ReducesTo [0, 1, 2] S_
  h_S_ : 0 < S_.numel
  bcast_S_S100x1 : S_.BroadcastsInDim S100x1 (![] : Fin 0 → Fin S100x1.rank)
  reducesTo_S100x1_S_d0_1 : S100x1.ReducesTo [0, 1] S_
  bcast_S_S100 : S_.BroadcastsInDim S100 (![] : Fin 0 → Fin S100.rank)
  reducesTo_S100_S_d0 : S100.ReducesTo [0] S_
  bcast_S_S100x100 : S_.BroadcastsInDim S100x100 (![] : Fin 0 → Fin S100x100.rank)
  reducesTo_S100x100_S_d0_1 : S100x100.ReducesTo [0, 1] S_
  bcast_S_S100x512 : S_.BroadcastsInDim S100x512 (![] : Fin 0 → Fin S100x512.rank)
  reducesTo_S100x512_S_d0_1 : S100x512.ReducesTo [0, 1] S_

variable [Facts]

def fn_part1 {F : FTy → Type} [FloatOps F] (main_arg4 : FVec F S100 .f32) (main_arg5 : FVec F S100x512 .f32) (main_v13 : IVec S_ 1) (main_v16 : IVec S100x100 1) : IVec S_ 1 :=
  let main_c_5 : IVec S_ 1 := constantI S_ 1 1#1
  let main_v17 : IVec S_ 1 := (fun x v => Host.reduce IntOp.andi x v reducesTo_S100x100_S_d0_1 h_S_) main_v16 main_c_5
  let main_v18 : IVec S_ 1 := andi main_v13 main_v17
  let main_v19 : FVec F S100 .f32 := Host.absf main_arg4
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S100x512 .f32 := Host.absf main_arg5
  let main_cst_8 : FVec F S_ .f32 := constant S_ .f32 0x7F800000#32
  let main_v25 : FVec F S100x512 .f32 := broadcastInDim S100x512 ![] bcast_S_S100x512 main_cst_8
  let main_v26 : IVec S100x512 1 := cmpf .olt main_v24 main_v25
  let main_c_9 : IVec S_ 1 := constantI S_ 1 1#1
  let main_v27 : IVec S_ 1 := (fun x v => Host.reduce IntOp.andi x v reducesTo_S100x512_S_d0_1 h_S_) main_v26 main_c_9
  let main_v28 : IVec S_ 1 := andi main_v23 main_v27
  main_v28

def fn {F : FTy → Type} [FloatOps F] (main_arg0 : FVec F S8x8192x1 .f32) (main_arg1 : FVec F S100x1 .f32) (main_arg2 : FVec F S100 .f32) (main_arg3 : FVec F S100x100 .f32) (main_arg4 : FVec F S100 .f32) (main_arg5 : FVec F S100x512 .f32) : IVec S_ 1 :=
  let main_v0 : FVec F S8x8192x1 .f32 := Host.absf main_arg0
  let main_cst : FVec F S_ .f32 := constant S_ .f32 0x7F800000#32
  let main_v1 : FVec F S8x8192x1 .f32 := broadcastInDim S8x8192x1 ![] bcast_S_S8x8192x1 main_cst
  let main_v2 : IVec S8x8192x1 1 := cmpf .olt main_v0 main_v1
  let main_c : IVec S_ 1 := constantI S_ 1 1#1
  let main_v3 : IVec S_ 1 := (fun x v => Host.reduce IntOp.andi x v reducesTo_S8x8192x1_S_d0_1_2 h_S_) main_v2 main_c
  let main_v4 : FVec F S100x1 .f32 := Host.absf main_arg1
  let main_cst_0 : FVec F S_ .f32 := constant S_ .f32 0x7F800000#32
  let main_v5 : FVec F S100x1 .f32 := broadcastInDim S100x1 ![] bcast_S_S100x1 main_cst_0
  let main_v6 : IVec S100x1 1 := cmpf .olt main_v4 main_v5
  let main_c_1 : IVec S_ 1 := constantI S_ 1 1#1
  let main_v7 : IVec S_ 1 := (fun x v => Host.reduce IntOp.andi x v reducesTo_S100x1_S_d0_1 h_S_) main_v6 main_c_1
  let main_v8 : IVec S_ 1 := andi main_v3 main_v7
  let main_v9 : FVec F S100 .f32 := Host.absf main_arg2
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100x100 .f32 := Host.absf main_arg3
  let main_cst_4 : FVec F S_ .f32 := constant S_ .f32 0x7F800000#32
  let main_v15 : FVec F S100x100 .f32 := broadcastInDim S100x100 ![] bcast_S_S100x100 main_cst_4
  let main_v16 : IVec S100x100 1 := cmpf .olt main_v14 main_v15
  fn_part1 (F := F) main_arg4 main_arg5 main_v13 main_v16
-- ==== Kernel.lean ====
abbrev S8x8192x1 : Shape := ⟨3, ![8, 8192, 1]⟩
abbrev S100x1 : Shape := ⟨2, ![100, 1]⟩
abbrev S100 : Shape := ⟨1, ![100]⟩
abbrev S100x100 : Shape := ⟨2, ![100, 100]⟩
abbrev S100x512 : Shape := ⟨2, ![100, 512]⟩
abbrev S65536x1 : Shape := ⟨2, ![65536, 1]⟩
abbrev S1x100 : Shape := ⟨2, ![1, 100]⟩
abbrev S65536x512 : Shape := ⟨2, ![65536, 512]⟩
abbrev S4096x1 : Shape := ⟨2, ![4096, 1]⟩
abbrev S4096x512 : Shape := ⟨2, ![4096, 512]⟩
abbrev S4096x100 : Shape := ⟨2, ![4096, 100]⟩
abbrev S4096 : Shape := ⟨1, ![4096]⟩
abbrev S8x8192x512 : Shape := ⟨3, ![8, 8192, 512]⟩

abbrev nBuf : Space → Nat
  | .hbm => 15
  | .vmem => 9
  | .smem => 0
  | _ => 0

abbrev bufTy : (tb : Table) → Fin (tcTables nBuf tb) → BufTy
  | .hbm, ⟨0, _⟩ => ⟨S8x8192x1, .f32⟩
  | .hbm, ⟨1, _⟩ => ⟨S100x1, .f32⟩
  | .hbm, ⟨2, _⟩ => ⟨S100, .f32⟩
  | .hbm, ⟨3, _⟩ => ⟨S100x100, .f32⟩
  | .hbm, ⟨4, _⟩ => ⟨S100, .f32⟩
  | .hbm, ⟨5, _⟩ => ⟨S100x512, .f32⟩
  | .hbm, ⟨6, _⟩ => ⟨S65536x1, .f32⟩
  | .hbm, ⟨7, _⟩ => ⟨S1x100, .f32⟩
  | .hbm, ⟨8, _⟩ => ⟨S1x100, .f32⟩
  | .hbm, ⟨9, _⟩ => ⟨S1x100, .f32⟩
  | .hbm, ⟨10, _⟩ => ⟨S100x100, .f32⟩
  | .hbm, ⟨11, _⟩ => ⟨S100x100, .bf16⟩
  | .hbm, ⟨12, _⟩ => ⟨S100x512, .bf16⟩
  | .hbm, ⟨13, _⟩ => ⟨S65536x512, .f32⟩
  | .hbm, ⟨14, _⟩ => ⟨S8x8192x512, .f32⟩
  | .local _ .vmem, ⟨0, _⟩ => ⟨S4096x1, .f32⟩
  | .local _ .vmem, ⟨1, _⟩ => ⟨S4096x1, .f32⟩
  | .local _ .vmem, ⟨2, _⟩ => ⟨S1x100, .f32⟩
  | .local _ .vmem, ⟨3, _⟩ => ⟨S1x100, .f32⟩
  | .local _ .vmem, ⟨4, _⟩ => ⟨S100x100, .bf16⟩
  | .local _ .vmem, ⟨5, _⟩ => ⟨S1x100, .f32⟩
  | .local _ .vmem, ⟨6, _⟩ => ⟨S100x512, .bf16⟩
  | .local _ .vmem, ⟨7, _⟩ => ⟨S4096x512, .f32⟩
  | .local _ .vmem, ⟨8, _⟩ => ⟨S4096x512, .f32⟩
  | _, _ => ⟨S8x8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x100 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S100x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x8192x1_S65536x1 : S8x8192x1.ShapeCasts S65536x1
  transposes_S100x1_S1x100_1_0 : S100x1.Transposes [1, 0] S1x100
  shapeCasts_S100_S1x100 : S100.ShapeCasts S1x100
  transposes_S100x100_S100x100_1_0 : S100x100.Transposes [1, 0] S100x100
  bitsLt_bf16_f32 : FTy.bits .bf16 < FTy.bits .f32
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x100_S1x100_0_0 : ∀ a, (![0, 0] : Fin 2 → Nat) a + S1x100.size a ≤ S1x100.size a
  h_S1x100 : 0 < S1x100.numel
  shapeCasts_S1x100_S1x100 : S1x100.ShapeCasts S1x100
  inb_S100x100_S100x100_0_0 : ∀ a, (![0, 0] : Fin 2 → Nat) a + S100x100.size a ≤ S100x100.size a
  h_S100x100 : 0 < S100x100.numel
  shapeCasts_S100x100_S100x100 : S100x100.ShapeCasts S100x100
  inb_S100x512_S100x512_0_0 : ∀ a, (![0, 0] : Fin 2 → Nat) a + S100x512.size a ≤ S100x512.size a
  h_S100x512 : 0 < S100x512.numel
  shapeCasts_S100x512_S100x512 : S100x512.ShapeCasts S100x512
  broadcasts_S4096x1_S4096x100 : S4096x1.Broadcasts S4096x100
  broadcasts_S1x100_S4096x100 : S1x100.Broadcasts S4096x100
  reduces_S4096x100_S4096 : S4096x100.Reduces [1] S4096
  shapeCasts_S4096_S4096x1 : S4096.ShapeCasts S4096x1
  inb_S4096x512_S4096x512_0_0 : ∀ a, (![0, 0] : Fin 2 → Nat) a + S4096x512.size a ≤ S4096x512.size a
  h_S4096x512 : 0 < S4096x512.numel
  shapeCasts_S65536x512_S8x8192x512 : S65536x512.ShapeCasts S8x8192x512
  dot_S4096x100_S100x100_S4096x100_1_0_0_1_n_n_wf : DotDims.WF S4096x100 S100x100 S4096x100 [1] [0] [0] [1] [] []
  dot_S4096x100_S100x512_S4096x512_1_0_0_1_n_n_wf : DotDims.WF S4096x100 S100x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S65536x1.size a
  hwx0_0 : ∀ i : grid0.Coords, EltTy.bits .f32 = 32 ∨ (Rect.block (s := S65536x1) S4096x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x100.size a ≤ S1x100.size a
  hwx0_1 : ∀ i : grid0.Coords, EltTy.bits .f32 = 32 ∨ (Rect.block (s := S1x100) S1x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x100.size a ≤ S100x100.size a
  hwx0_3 : ∀ i : grid0.Coords, EltTy.bits .bf16 = 32 ∨ (Rect.block (s := S100x100) S100x100.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x100.size a ≤ S1x100.size a
  hwx0_4 : ∀ i : grid0.Coords, EltTy.bits .f32 = 32 ∨ (Rect.block (s := S1x100) S1x100.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S100x512.size a ≤ S100x512.size a
  hwx0_5 : ∀ i : grid0.Coords, EltTy.bits .bf16 = 32 ∨ (Rect.block (s := S100x512) S100x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x512.size a ≤ S65536x512.size a
  hwx0_6 : ∀ i : grid0.Coords, EltTy.bits .f32 = 32 ∨ (Rect.block (s := S65536x512) S4096x512.size (cc0_transform_6 i) (hinb0_6 i)).WholeWords (EltTy.packing .f32)

variable [Facts₀]

def dot_S4096x100_S100x100_S4096x100_1_0_0_1_n_n : DotDims S4096x100 S100x100 S4096x100 where
  lhsContracting := [1]
  rhsContracting := [0]
  lhsNonContracting := [0]
  rhsNonContracting := [1]
  lhsBatch := []
  rhsBatch := []
  wf := dot_S4096x100_S100x100_S4096x100_1_0_0_1_n_n_wf
def dot_S4096x100_S100x512_S4096x512_1_0_0_1_n_n : DotDims S4096x100 S100x512 S4096x512 where
  lhsContracting := [1]
  rhsContracting := [0]
  lhsNonContracting := [0]
  rhsNonContracting := [1]
  lhsBatch := []
  rhsBatch := []
  wf := dot_S4096x100_S100x512_S4096x512_1_0_0_1_n_n_wf

abbrev win0_0 : Pipeline.Window sig grid0 :=
  Pipeline.Window.ofSpec (Memref.whole main_v0) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S100x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S100x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S4096x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x8192x1 : Shape := ⟨3, ![8, 8192, 1]⟩
abbrev S100x1 : Shape := ⟨2, ![100, 1]⟩
abbrev S100 : Shape := ⟨1, ![100]⟩
abbrev S100x100 : Shape := ⟨2, ![100, 100]⟩
abbrev S100x512 : Shape := ⟨2, ![100, 512]⟩
abbrev S1x1x100 : Shape := ⟨3, ![1, 1, 100]⟩
abbrev S8x8192x100 : Shape := ⟨3, ![8, 8192, 100]⟩
abbrev S_ : Shape := ⟨0, ![]⟩
abbrev S8x8192 : Shape := ⟨2, ![8, 8192]⟩
abbrev S8x8192x512 : Shape := ⟨3, ![8, 8192, 512]⟩

abbrev nBuf : Space → Nat
  | .hbm => 44
  | .vmem => 0
  | .smem => 0
  | _ => 0

abbrev bufTy : (tb : Table) → Fin (tcTables nBuf tb) → BufTy
  | .hbm, ⟨0, _⟩ => ⟨S8x8192x1, .f32⟩
  | .hbm, ⟨1, _⟩ => ⟨S100x1, .f32⟩
  | .hbm, ⟨2, _⟩ => ⟨S100, .f32⟩
  | .hbm, ⟨3, _⟩ => ⟨S100x100, .f32⟩
  | .hbm, ⟨4, _⟩ => ⟨S100, .f32⟩
  | .hbm, ⟨5, _⟩ => ⟨S100x512, .f32⟩
  | .hbm, ⟨6, _⟩ => ⟨S100, .f32⟩
  | .hbm, ⟨7, _⟩ => ⟨S1x1x100, .f32⟩
  | .hbm, ⟨8, _⟩ => ⟨S8x8192x100, .f32⟩
  | .hbm, ⟨9, _⟩ => ⟨S8x8192x100, .f32⟩
  | .hbm, ⟨10, _⟩ => ⟨S8x8192x100, .f32⟩
  | .hbm, ⟨11, _⟩ => ⟨S1x1x100, .f32⟩
  | .hbm, ⟨12, _⟩ => ⟨S8x8192x100, .f32⟩
  | .hbm, ⟨13, _⟩ => ⟨S8x8192x100, .f32⟩
  | .hbm, ⟨14, _⟩ => ⟨S_, .f32⟩
  | .hbm, ⟨15, _⟩ => ⟨S8x8192x100, .f32⟩
  | .hbm, ⟨16, _⟩ => ⟨S8x8192x100, .i1⟩
  | .hbm, ⟨17, _⟩ => ⟨S_, .f32⟩
  | .hbm, ⟨18, _⟩ => ⟨S8x8192x100, .f32⟩
  | .hbm, ⟨19, _⟩ => ⟨S8x8192x100, .f32⟩
  | .hbm, ⟨20, _⟩ => ⟨S8x8192x100, .f32⟩
  | .hbm, ⟨21, _⟩ => ⟨S8x8192x100, .f32⟩
  | .hbm, ⟨22, _⟩ => ⟨S1x1x100, .f32⟩
  | .hbm, ⟨23, _⟩ => ⟨S8x8192x100, .f32⟩
  | .hbm, ⟨24, _⟩ => ⟨S8x8192x100, .f32⟩
  | .hbm, ⟨25, _⟩ => ⟨S_, .f32⟩
  | .hbm, ⟨26, _⟩ => ⟨S8x8192x100, .f32⟩
  | .hbm, ⟨27, _⟩ => ⟨S8x8192x100, .f32⟩
  | .hbm, ⟨28, _⟩ => ⟨S8x8192x100, .f32⟩
  | .hbm, ⟨29, _⟩ => ⟨S_, .f32⟩
  | .hbm, ⟨30, _⟩ => ⟨S8x8192, .f32⟩
  | .hbm, ⟨31, _⟩ => ⟨S_, .f32⟩
  | .hbm, ⟨32, _⟩ => ⟨S8x8192, .f32⟩
  | .hbm, ⟨33, _⟩ => ⟨S8x8192, .f32⟩
  | .hbm, ⟨34, _⟩ => ⟨S8x8192x1, .f32⟩
  | .hbm, ⟨35, _⟩ => ⟨S8x8192x100, .f32⟩
  | .hbm, ⟨36, _⟩ => ⟨S8x8192x100, .f32⟩
  | .hbm, ⟨37, _⟩ => ⟨S8x8192x100, .f32⟩
  | .hbm, ⟨38, _⟩ => ⟨S_, .f32⟩
  | .hbm, ⟨39, _⟩ => ⟨S8x8192, .f32⟩
  | .hbm, ⟨40, _⟩ => ⟨S8x8192x1, .f32⟩
  | .hbm, ⟨41, _⟩ => ⟨S8x8192x100, .f32⟩
  | .hbm, ⟨42, _⟩ => ⟨S8x8192x100, .f32⟩
  | .hbm, ⟨43, _⟩ => ⟨S8x8192x512, .f32⟩
  | _, _ => ⟨S8x8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  shapeCasts_S100x1_S100 : S100x1.ShapeCasts S100
  bcast_S100_S1x1x100_2 : S100.BroadcastsInDim S1x1x100 (![2] : Fin 1 → Fin S1x1x100.rank)
  bcast_S8x8192x1_S8x8192x100_0_1_2 : S8x8192x1.BroadcastsInDim S8x8192x100 (![0, 1, 2] : Fin 3 → Fin S8x8192x100.rank)
  bcast_S1x1x100_S8x8192x100_0_1_2 : S1x1x100.BroadcastsInDim S8x8192x100 (![0, 1, 2] : Fin 3 → Fin S8x8192x100.rank)
  bcast_S_S8x8192x100 : S_.BroadcastsInDim S8x8192x100 (![] : Fin 0 → Fin S8x8192x100.rank)
  reducesTo_S8x8192x100_S8x8192_d2 : S8x8192x100.ReducesTo [2] S8x8192
  h_S_ : 0 < S_.numel
  bcast_S_S8x8192 : S_.BroadcastsInDim S8x8192 (![] : Fin 0 → Fin S8x8192.rank)
  bcast_S8x8192_S8x8192x1_0_1 : S8x8192.BroadcastsInDim S8x8192x1 (![0, 1] : Fin 2 → Fin S8x8192x1.rank)
  dot_S8x8192x100_S100x100_S8x8192x100_2_1_01_0_n_n_wf : DotDims.WF S8x8192x100 S100x100 S8x8192x100 [2] [1] [0, 1] [0] [] []
  dot_S8x8192x100_S100x512_S8x8192x512_2_0_01_1_n_n_wf : DotDims.WF S8x8192x100 S100x512 S8x8192x512 [2] [0] [0, 1] [1] [] []

variable [Facts₀]

def dot_S8x8192x100_S100x100_S8x8192x100_2_1_01_0_n_n : DotDims S8x8192x100 S100x100 S8x8192x100 where
  lhsContracting := [2]
  rhsContracting := [1]
  lhsNonContracting := [0, 1]
  rhsNonContracting := [0]
  lhsBatch := []
  rhsBatch := []
  wf := dot_S8x8192x100_S100x100_S8x8192x100_2_1_01_0_n_n_wf
def dot_S8x8192x100_S100x512_S8x8192x512_2_0_01_1_n_n : DotDims S8x8192x100 S100x512 S8x8192x512 where
  lhsContracting := [2]
  rhsContracting := [0]
  lhsNonContracting := [0, 1]
  rhsNonContracting := [1]
  lhsBatch := []
  rhsBatch := []
  wf := dot_S8x8192x100_S100x512_S8x8192x512_2_0_01_1_n_n_wf

class Facts : Prop extends Facts₀ where

variable [Facts]
-- ==== Proof.SoftBin.lean ====
/-
  The function both programs compute, written one row at a time.

  A row is one scalar `xv` (one entry of `x`). It is spread over 100 bins by an affine map and a leaky rectifier,
  `hidden k = act (xv * w k + b k)`; the bins are mixed by a 100 x 100 matrix with a bias and the unmixed value is
  added back, `logit j = 1 * hidden j + (sum_k hidden k * W j k + c j)`; the logits are turned into weights by the
  shifted softmax, `share k = exp (logit k - top) / sum_j exp (logit j - top)` with `top` the largest logit; and the
  row of the result is the weights' combination of the 100 embedding rows, `blend d = sum_k share k * E k d`.
  Everything is on the extended reals, where a format change is the identity, so the only differences left between the
  two programs are how the arrays are laid out and in which order the sums and the maximum are folded.
-/
import Idealize.ShloMosaic.PureOps.Ideal.Laws
import Idealize.ShloMosaic.Lib.ValueIdx

noncomputable section

namespace Cert.SoftBin

open Idealize.ShloMosaic Idealize.ShloMosaic.ValueIdx

/-- The four literals both programs carry, as the extended reals their words denote: zero, the rectifier's slope
    (the single-precision number nearest one tenth), one, and minus infinity. The same word stands on both sides, so
    none of them is ever evaluated. -/
abbrev zeroW : EReal := Ideal.ofBits .f32 0x00000000#32
abbrev slopeW : EReal := Ideal.ofBits .f32 0x3DCCCCCD#32
abbrev oneW : EReal := Ideal.ofBits .f32 0x3F800000#32
abbrev floorW : EReal := Ideal.ofBits .f32 0xFF800000#32

/-- The five weight arrays by coordinates: `w`, `b` the first layer, `W j k`, `c` the mixing layer (output bin `j`,
    input bin `k`), `E k d` the embedding table. -/
structure Weights where
  w : Fin 100 → EReal
  b : Fin 100 → EReal
  W : Fin 100 → Fin 100 → EReal
  c : Fin 100 → EReal
  E : Fin 100 → Fin 512 → EReal

/-- The leaky rectifier: `p` where `p` is at least zero, the slope times `p` elsewhere. -/
def act (p : EReal) : EReal := Scalar.select (Ideal.cmp .oge p zeroW) p (slopeW * p)

variable (P : Weights) (xv : EReal)

/-- Bin `k` of the row's hidden layer. -/
def hidden (k : Fin 100) : EReal := act (xv * P.w k + P.b k)
/-- Logit `j`: the hidden value kept, plus the mixed hidden values and the bias. -/
def logit (j : Fin 100) : EReal := oneW * hidden P xv j + ((∑ k : Fin 100, hidden P xv k * P.W j k) + P.c j)
/-- The largest logit of the row (the fold of `max` from minus infinity). -/
def top : EReal := (Finset.univ : Finset (Fin 100)).fold max floorW (logit P xv)
/-- The shifted exponential of logit `j`. -/
def expo (j : Fin 100) : EReal := Ideal.exp (logit P xv j - top P xv)
/-- The row's normaliser. -/
def mass : EReal := ∑ j : Fin 100, expo P xv j
/-- The softmax weight of bin `k`. -/
def share (k : Fin 100) : EReal := Ideal.div (expo P xv k) (mass P xv)
/-- Column `d` of the row's result: the weights' combination of the embedding rows. -/
def blend (d : Fin 512) : EReal := ∑ k : Fin 100, share P xv k * P.E k d

/-- The weights read off the argument arrays as the reference holds them: `w1 : [100, 1]`, `b1 : [100]`,
    `w2 : [100, 100]` (row = output bin), `b2 : [100]`, `emb : [100, 512]`. -/
def ofArrays (w1 : (⟨2, ![100, 1]⟩ : Shape).Idx → EReal) (b1 : (⟨1, ![100]⟩ : Shape).Idx → EReal)
    (w2 : (⟨2, ![100, 100]⟩ : Shape).Idx → EReal) (b2 : (⟨1, ![100]⟩ : Shape).Idx → EReal)
    (emb : (⟨2, ![100, 512]⟩ : Shape).Idx → EReal) : Weights where
  w k := w1 (ix2 k (0 : Fin 1))
  b k := b1 (ix1 k)
  W j k := w2 (ix2 j k)
  c j := b2 (ix1 j)
  E k d := emb (ix2 k d)

/-- The whole result `[8, 8192, 512]`: entry `(b, s, d)` is column `d` of the row of `x (b, s, 0)`. -/
def result (x : (⟨3, ![8, 8192, 1]⟩ : Shape).Idx → EReal) (P : Weights) : (⟨3, ![8, 8192, 512]⟩ : Shape).Idx → EReal :=
  fun i => blend P (x (ix3 (⟨(i 0).val, (i 0).isLt⟩ : Fin 8) (⟨(i 1).val, (i 1).isLt⟩ : Fin 8192) (0 : Fin 1)))
    (⟨(i 2).val, (i 2).isLt⟩ : Fin 512)

theorem result_ix3 (x : (⟨3, ![8, 8192, 1]⟩ : Shape).Idx → EReal) (P : Weights) (b : Fin 8) (s : Fin 8192) (d : Fin 512) :
    result x P (ix3 b s d) = blend P (x (ix3 b s (0 : Fin 1))) d := rfl

/-- The same with the two leading axes flattened, `[65536, 512]` from a column `[65536, 1]`: entry `(r, d)` is
    column `d` of the row of `x (r, 0)`. -/
def rows (x : (⟨2, ![65536, 1]⟩ : Shape).Idx → EReal) (P : Weights) : (⟨2, ![65536, 512]⟩ : Shape).Idx → EReal :=
  fun i => blend P (x (ix2 (⟨(i 0).val, (i 0).isLt⟩ : Fin 65536) (0 : Fin 1))) (⟨(i 1).val, (i 1).isLt⟩ : Fin 512)

theorem rows_ix2 (x : (⟨2, ![65536, 1]⟩ : Shape).Idx → EReal) (P : Weights) (r : Fin 65536) (d : Fin 512) :
    rows x P (ix2 r d) = blend P (x (ix2 r (0 : Fin 1))) d := rfl

/-- The maximum of a number with a fold of `max` that started from it is the fold: the fold is at least its start. -/
theorem max_fold_self {ι : Type} (s : Finset ι) (c : EReal) (f : ι → EReal) :
    max c (s.fold max c f) = s.fold max c f :=
  max_eq_right ((Finset.le_fold_max c).mpr (Or.inl le_rfl))

end Cert.SoftBin

end
-- ==== Proof.RefRows.lean ====
/-
  The reference computes the row function: its result array is `SoftBin.result` of the argument arrays.

  The reference works on `[8, 8192, 100]` arrays; every stage at `(b, s, k)` depends on the one scalar `x (b, s, 0)` and
  on the weights, and is the matching stage of `SoftBin` for that scalar. Its softmax takes the maximum once more against
  minus infinity, which changes nothing (a fold of `max` is at least its starting value), and its sum starts from a zero.
-/
import proofs.«173090_j62749472195319_2_alg».proof.Proof.Gen.ReferenceIdeal.Read
import proofs.«173090_j62749472195319_2_alg».proof.Proof.SoftBin
import Idealize.ShloMosaic.PureOps.Reduce

noncomputable section

namespace Cert.ReferenceIdeal.RefValue

open Cert.ReferenceIdeal Cert.ReferenceIdeal.Read Idealize.ShloMosaic Idealize.ShloMosaic.ValueIdx Cert.SoftBin

variable (x0 : S8x8192x1.Idx → EReal) (x1 : S100x1.Idx → EReal) (x2 : S100.Idx → EReal) (x3 : S100x100.Idx → EReal)
  (x4 : S100.Idx → EReal) (x5 : S100x512.Idx → EReal) (b : Fin 8) (s : Fin 8192)

local notation "P" => ofArrays x1 x2 x3 x4 x5
local notation "xv" => x0 (ix3 b s (0 : Fin 1))

/-- The affine map of the first layer at `(b, s, k)`. -/
theorem affine_at (k : Fin 100) :
    val_main_v7 (F := Ideal) x0 x1 x2 (ix3 b s k) = x0 (ix3 b s (0 : Fin 1)) * x1 (ix2 k (0 : Fin 1)) + x2 (ix1 k) := by
  rw [val_main_v7_apply, val_main_v4_apply, val_main_v2_apply, val_main_v3_apply, val_main_v1_apply, val_main_v0_apply,
    val_main_v6_apply, val_main_v5_apply]
  have e0 : idx_main_v2 (ix3 b s k) = ix3 b s (0 : Fin 1) := funext fun a => by
    match a with | ⟨0, _⟩ => rfl | ⟨1, _⟩ => rfl | ⟨2, _⟩ => rfl
  have e1 : idx_main_v0 (idx_main_v1 (idx_main_v3 (ix3 b s k))) = ix2 k (0 : Fin 1) := funext fun a => by
    match a with | ⟨0, _⟩ => exact Fin.ext (Nat.div_one _) | ⟨1, _⟩ => rfl
  have e2 : idx_main_v5 (idx_main_v6 (ix3 b s k)) = ix1 k := funext fun a => by
    match a with | ⟨0, _⟩ => rfl
  rw [e0, e1, e2]
  rfl

/-- The hidden layer at `(b, s, k)`. -/
theorem hidden_at (k : Fin 100) : val_main_v12 (F := Ideal) x0 x1 x2 (ix3 b s k) = hidden P xv k := by
  rw [val_main_v12_apply, val_main_v9_apply, val_main_v11_apply, val_main_v8_apply, val_main_cst_apply, val_main_v10_apply,
    val_main_cst_0_apply, affine_at x0 x1 x2 b s k]
  rfl

/-- The logits at `(b, s, j)`. -/
theorem logit_at (j : Fin 100) : val_main_v19 (F := Ideal) x0 x1 x2 x3 x4 (ix3 b s j) = logit P xv j := by
  rw [val_main_v19_apply, val_main_v18_apply, val_main_v17_apply, val_main_cst_1_apply, val_main_v16_apply, val_main_v13_apply,
    val_main_v15_apply, val_main_v14_apply, hidden_at x0 x1 x2 x3 x4 x5 b s j]
  have hs : ∀ k : Fin 100, val_main_v12 (F := Ideal) x0 x1 x2 (lidx_main_v13 (ix3 b s j) k) * x3 (ridx_main_v13 (ix3 b s j) k)
      = hidden P xv k * (P).W j k := fun k => by
    have e : lidx_main_v13 (ix3 b s j) k = ix3 b s k := funext fun a => by
      match a with | ⟨0, _⟩ => rfl | ⟨1, _⟩ => rfl | ⟨2, _⟩ => rfl
    have er : ridx_main_v13 (ix3 b s j) k = ix2 j k := funext fun a => by
      match a with | ⟨0, _⟩ => rfl | ⟨1, _⟩ => rfl
    rw [e, er, hidden_at x0 x1 x2 x3 x4 x5 b s k]
    rfl
  have ec : idx_main_v14 (idx_main_v15 (ix3 b s j)) = ix1 j := funext fun a => by
    match a with | ⟨0, _⟩ => rfl
  simp only [hs]
  rw [ec]
  rfl

/-- The row maximum at `(b, s)`. -/
theorem top_at : val_main_v22 (F := Ideal) x0 x1 x2 x3 x4 (ix2 b s) = top P xv := by
  rw [val_main_v22_apply, val_main_v21_apply, val_main_cst_3_apply]
  unfold val_main_v20
  rw [Host.reduce_eq_fold_single FloatOps.maximumf _ _ Facts₀.reducesTo_S8x8192x100_S8x8192_d2
    (by decide : S8x8192x100.Reduces [2] S8x8192) Facts₀.h_S_ (ix2 b s)]
  refine (max_fold_self _ _ _).trans ?_
  refine Finset.fold_congr fun (k : Fin 100) _ => ?_
  have e : (by decide : S8x8192x100.Reduces [2] S8x8192).lift (ix2 b s) k = ix3 b s k := funext fun a => by
    match a with | ⟨0, _⟩ => rfl | ⟨1, _⟩ => rfl | ⟨2, _⟩ => rfl
  show val_main_v19 (F := Ideal) x0 x1 x2 x3 x4 ((by decide : S8x8192x100.Reduces [2] S8x8192).lift (ix2 b s) k) = _
  rw [e, logit_at x0 x1 x2 x3 x4 x5 b s k]

/-- The shifted exponentials at `(b, s, j)`. -/
theorem expo_at (j : Fin 100) : val_main_v26 (F := Ideal) x0 x1 x2 x3 x4 (ix3 b s j) = expo P xv j := by
  rw [val_main_v26_apply, val_main_v25_apply, val_main_v24_apply, val_main_v23_apply, logit_at x0 x1 x2 x3 x4 x5 b s j]
  have e : idx_main_v23 (idx_main_v24 (ix3 b s j)) = ix2 b s := funext fun a => by
    match a with | ⟨0, _⟩ => rfl | ⟨1, _⟩ => rfl
  rw [e, top_at x0 x1 x2 x3 x4 x5 b s]
  rfl

/-- The normaliser at `(b, s)`: the reference's sum starts from a zero. -/
theorem mass_at : val_main_v27 (F := Ideal) x0 x1 x2 x3 x4 (ix2 b s) = mass P xv := by
  rw [val_main_v27_apply, val_main_cst_4_apply]
  have hs : ∀ k : Fin 100, val_main_v26 (F := Ideal) x0 x1 x2 x3 x4 (idx_main_v27 (ix2 b s) k) = expo P xv k := fun k => by
    have e : idx_main_v27 (ix2 b s) k = ix3 b s k := funext fun a => by
      match a with | ⟨0, _⟩ => rfl | ⟨1, _⟩ => rfl | ⟨2, _⟩ => rfl
    rw [e, expo_at x0 x1 x2 x3 x4 x5 b s k]
  simp only [hs]
  show Ideal.ofBits .f32 0x00000000#32 + _ = _
  rw [Ideal.ofBits_zero_f32, zero_add]
  rfl

/-- The softmax weights at `(b, s, k)`. -/
theorem share_at (k : Fin 100) : val_main_v30 (F := Ideal) x0 x1 x2 x3 x4 (ix3 b s k) = share P xv k := by
  rw [val_main_v30_apply, expo_at x0 x1 x2 x3 x4 x5 b s k, val_main_v29_apply, val_main_v28_apply]
  have e : idx_main_v28 (idx_main_v29 (ix3 b s k)) = ix2 b s := funext fun a => by
    match a with | ⟨0, _⟩ => rfl | ⟨1, _⟩ => rfl
  rw [e, mass_at x0 x1 x2 x3 x4 x5 b s]
  rfl

/-- The reference's result stage is the row function of the argument arrays. -/
theorem result_eq : val_main_v31 (F := Ideal) x0 x1 x2 x3 x4 x5 = result x0 P := by
  funext i
  obtain ⟨b, s, d, rfl⟩ : ∃ (b : Fin 8) (s : Fin 8192) (d : Fin 512), i = ix3 b s d := ⟨i 0, i 1, i 2, eq_ix3 i⟩
  rw [val_main_v31_apply, result_ix3]
  unfold blend
  refine Finset.sum_congr rfl fun k _ => ?_
  have e : lidx_main_v31 (ix3 b s d) k = ix3 b s k := funext fun a => by
    match a with | ⟨0, _⟩ => rfl | ⟨1, _⟩ => rfl | ⟨2, _⟩ => rfl
  have er : ridx_main_v31 (ix3 b s d) k = ix2 k d := funext fun a => by
    match a with | ⟨0, _⟩ => rfl | ⟨1, _⟩ => rfl
  rw [e, er, share_at x0 x1 x2 x3 x4 x5 b s k]
  rfl

end Cert.ReferenceIdeal.RefValue

end
-- ==== Proof.LibColumnBroadcast.lean ====
/-
  The keepdims forms of a per-row scalar, read at an index: a column broadcast over the lanes, and a vector
  reshaped to a column.
-/
import Idealize.ShloMosaic.Lib.Pipeline.Value
import Idealize.ShloMosaic.Lib.ValueIdx

namespace Cert.Lib.ColumnBroadcast

open Idealize.ShloMosaic Idealize.ShloMosaic.ValueIdx

variable {α : Type}

/-- An `[a, 1]` array broadcast to `[a, b]` reads, at `(p, c)`, the operand's one column at row `p`
    (the keepdims form of a per-row scalar spread over the row). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`
    (the keepdims form of a per-row reduction's result). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.Lib.ColumnBroadcast
-- ==== Proof.LibPlainDot.lean ====
/-
  A matrix product that contracts the left operand's columns with the right operand's rows, read at an output
  index: whatever record of dimension numbers spells it, once the record's operand indices are known coordinate
  by coordinate (row of the left operand = output row, column of the right operand = output column, the two
  contracted coordinates = the contraction index), the sum over the record's contraction index is the textbook
  sum over `k : Fin K` of `l (r, k) * r (k, c)`. Stated on the extended reals, where the sum is a sum in a
  commutative monoid and re-indexing along a bijection changes nothing.
-/
import Idealize.ShloMosaic.PureOps.Ideal.Laws
import Idealize.ShloMosaic.Lib.ValueIdx

noncomputable section

namespace Cert.PlainDot

open Idealize.ShloMosaic Idealize.ShloMosaic.ValueIdx

/-- The contraction of an `M×K` by `K×N` product at output index `j`, as a sum over `Fin K`. The hypotheses say
    what the record's two operand-index functions are, one coordinate each: they are what a concrete record
    gives by unfolding its lists of axes. -/
theorem sum_eq {M K N : ℕ} (d : DotDims ⟨2, ![M, K]⟩ ⟨2, ![K, N]⟩ ⟨2, ![M, N]⟩)
    (hr : d.contr.rank = 1) (hs : d.contr.size ⟨0, by omega⟩ = K)
    (hl0 : ∀ (j : (⟨2, ![M, N]⟩ : Shape).Idx) (q : d.contr.Idx), (d.lhsIdx j q 0).val = (j 0).val)
    (hl1 : ∀ (j : (⟨2, ![M, N]⟩ : Shape).Idx) (q : d.contr.Idx), (d.lhsIdx j q 1).val = (q ⟨0, by omega⟩).val)
    (hr0 : ∀ (j : (⟨2, ![M, N]⟩ : Shape).Idx) (q : d.contr.Idx), (d.rhsIdx j q 0).val = (q ⟨0, by omega⟩).val)
    (hr1 : ∀ (j : (⟨2, ![M, N]⟩ : Shape).Idx) (q : d.contr.Idx), (d.rhsIdx j q 1).val = (j 1).val)
    (lhs : (⟨2, ![M, K]⟩ : Shape).Idx → EReal) (rhs : (⟨2, ![K, N]⟩ : Shape).Idx → EReal)
    (j : (⟨2, ![M, N]⟩ : Shape).Idx) :
    ∑ q : d.contr.Idx, lhs (d.lhsIdx j q) * rhs (d.rhsIdx j q)
      = ∑ k : Fin K, lhs (ix2 ⟨(j 0).val, idx2_lt0 j⟩ k) * rhs (ix2 k ⟨(j 1).val, idx2_lt1 j⟩) := by
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 ⟨(j 0).val, idx2_lt0 j⟩ k :=
    funext fun a => Fin.ext (by
      match a with
      | ⟨0, _⟩ => exact hl0 _ _
      | ⟨1, _⟩ => exact (hl1 _ _).trans hk)
  have er : d.rhsIdx j ((contrEquiv1 d K hr hs).symm k) = ix2 k ⟨(j 1).val, idx2_lt1 j⟩ :=
    funext fun a => Fin.ext (by
      match a with
      | ⟨0, _⟩ => exact (hr0 _ _).trans hk
      | ⟨1, _⟩ => exact hr1 _ _)
  rw [el, er]

end Cert.PlainDot

end
-- ==== Proof.KernelRows.lean ====
/-
  The kernel body computes the row function on its blocks.

  At a grid point the body holds a column of 4096 scalars (one per row of the block), the three weight rows `[1, 100]`,
  the mixing matrix already transposed `[100, 100]` (row = input bin, column = output bin) and the embedding table
  `[100, 512]`. Entry `(r, d)` of what it stores is column `d` of `SoftBin`'s row for the scalar at `(r, 0)`: the two matrix
  products into a zero accumulator are plain sums over the 100 bins, the lane maximum is the fold of `max` from minus
  infinity, the lane sum is the sum, and the per-row maximum and sum go back over the lanes as a column.
-/
import proofs.«173090_j62749472195319_2_alg».proof.Proof.Gen.KernelIdeal.Skeleton
import proofs.«173090_j62749472195319_2_alg».proof.Proof.SoftBin
import proofs.«173090_j62749472195319_2_alg».proof.Proof.LibColumnBroadcast
import proofs.«173090_j62749472195319_2_alg».proof.Proof.LibPlainDot
import Idealize.ShloMosaic.Lib.Pipeline.Value
import Idealize.ShloMosaic.Lib.ValueLayout

noncomputable section

namespace Cert.KernelIdeal.BlockValue

open Cert.KernelIdeal Cert.KernelIdeal.Gen Idealize.ShloMosaic Idealize.ShloMosaic.ValueIdx Cert.SoftBin
open Cert.Lib.ColumnBroadcast

variable (v0 : FVec Ideal S4096x1 .f32) (v2 v4 : FVec Ideal S1x100 .f32) (v6 : FVec Ideal S100x100 .bf16)
  (v8 : FVec Ideal S1x100 .f32) (v10 : FVec Ideal S100x512 .bf16)

/-- The weights as the body's blocks hold them: the mixing matrix is transposed, `W j k` sits at `(k, j)`. -/
def ofBlocks : Weights where
  w k := v2 (ix2 (0 : Fin 1) k)
  b k := v4 (ix2 (0 : Fin 1) k)
  W j k := v6 (ix2 k j)
  c j := v8 (ix2 (0 : Fin 1) j)
  E k d := v10 (ix2 k d)

/-! ## The body's stages, as the printed operations -/

/-- The first layer before the rectifier. -/
def preV : FVec Ideal S4096x100 .f32 :=
  addf (mulf (broadcastTo S4096x100 (shapeCast S4096x1 v0 shapeCasts_S4096x1_S4096x1) broadcasts_S4096x1_S4096x100)
      (broadcastTo S4096x100 (shapeCast S1x100 v2 shapeCasts_S1x100_S1x100) broadcasts_S1x100_S4096x100))
    (broadcastTo S4096x100 (shapeCast S1x100 v4 shapeCasts_S1x100_S1x100) broadcasts_S1x100_S4096x100)

/-- The hidden layer. -/
def hidV : FVec Ideal S4096x100 .f32 :=
  select (cmpf .oge (preV v0 v2 v4) (broadcast S4096x100 (Scalar.ofBits (F := Ideal) .f32 0x00000000#32))) (preV v0 v2 v4)
    (mulf (broadcast S4096x100 (Scalar.ofBits (F := Ideal) .f32 0x3DCCCCCD#32)) (preV v0 v2 v4))

/-- The logits. -/
def logitV : FVec Ideal S4096x100 .f32 :=
  addf (mulf (broadcast S4096x100 (Scalar.ofBits (F := Ideal) .f32 0x3F800000#32)) (hidV v0 v2 v4))
    (addf (matmul dot_S4096x100_S100x100_S4096x100_1_0_0_1_n_n none (truncf .bf16 (hidV v0 v2 v4) bitsLt_bf16_f32)
        (shapeCast S100x100 v6 shapeCasts_S100x100_S100x100) (constant (F := Ideal) S4096x100 .f32 0x00000000#32))
      (broadcastTo S4096x100 (shapeCast S1x100 v8 shapeCasts_S1x100_S1x100) broadcasts_S1x100_S4096x100))

/-- The rows' maxima. -/
def topV : FVec Ideal S4096 .f32 :=
  multiReduction .maximumf [1] S4096 (logitV v0 v2 v4 v6 v8) 0xFF800000#32 reduces_S4096x100_S4096 (.inl rfl) rfl

/-- The shifted exponentials. -/
def expoV : FVec Ideal S4096x100 .f32 :=
  exp (subf (logitV v0 v2 v4 v6 v8)
    (broadcastTo S4096x100 (shapeCast S4096x1 (topV v0 v2 v4 v6 v8) shapeCasts_S4096_S4096x1) broadcasts_S4096x1_S4096x100))

/-- The rows' normalisers. -/
def massV : FVec Ideal S4096 .f32 :=
  multiReduction .add [1] S4096 (expoV v0 v2 v4 v6 v8) 0x00000000#32 reduces_S4096x100_S4096 (.inl rfl) rfl

/-- The softmax weights. -/
def shareV : FVec Ideal S4096x100 .f32 :=
  divf (expoV v0 v2 v4 v6 v8)
    (broadcastTo S4096x100 (shapeCast S4096x1 (massV v0 v2 v4 v6 v8) shapeCasts_S4096_S4096x1) broadcasts_S4096x1_S4096x100)

/-- The stored block. -/
def outV : FVec Ideal S4096x512 .f32 :=
  matmul dot_S4096x100_S100x512_S4096x512_1_0_0_1_n_n none (truncf .bf16 (shareV v0 v2 v4 v6 v8) bitsLt_bf16_f32)
    (shapeCast S100x512 v10 shapeCasts_S100x512_S100x512) (constant (F := Ideal) S4096x512 .f32 0x00000000#32)

/-- The body's payload is these stages composed. -/
theorem pay_eq : k0_pay1 (F := Ideal) v0 v2 v4 v6 v8 v10 = outV v0 v2 v4 v6 v8 v10 := rfl

/-! ## The two matrix products at an index -/

/-- The mixing product at `(r, j)`: the sum over the input bins. -/
theorem mix_at (lhs : FVec Ideal S4096x100 .bf16) (rhs : FVec Ideal S100x100 .bf16) (r : Fin 4096) (j : Fin 100) :
    matmul dot_S4096x100_S100x100_S4096x100_1_0_0_1_n_n none lhs rhs (constant (F := Ideal) S4096x100 .f32 0x00000000#32) (ix2 r j)
      = ∑ k : Fin 100, lhs (ix2 r k) * rhs (ix2 k j) := by
  refine (Ideal.matmul_constant_zero_apply dot_S4096x100_S100x100_S4096x100_1_0_0_1_n_n none lhs rhs (ix2 r j)).trans ?_
  exact Cert.PlainDot.sum_eq dot_S4096x100_S100x100_S4096x100_1_0_0_1_n_n rfl rfl
    (fun i q => by
      unfold DotDims.lhsIdx
      rw [dif_neg (show ¬(0 : Fin S4096x100.rank) ∈ dot_S4096x100_S100x100_S4096x100_1_0_0_1_n_n.lhsBatch by decide),
        dif_pos (show (0 : Fin S4096x100.rank) ∈ dot_S4096x100_S100x100_S4096x100_1_0_0_1_n_n.lhsNonContracting by decide)]
      rfl)
    (fun i q => dot_S4096x100_S100x100_S4096x100_1_0_0_1_n_n.lhsIdx_val_of_single rfl i q)
    (fun i q => dot_S4096x100_S100x100_S4096x100_1_0_0_1_n_n.rhsIdx_val_of_single rfl i q)
    (fun i q => by
      unfold DotDims.rhsIdx
      rw [dif_neg (show ¬(1 : Fin S100x100.rank) ∈ dot_S4096x100_S100x100_S4096x100_1_0_0_1_n_n.rhsBatch by decide),
        dif_pos (show (1 : Fin S100x100.rank) ∈ dot_S4096x100_S100x100_S4096x100_1_0_0_1_n_n.rhsNonContracting by decide)]
      rfl)
    lhs rhs (ix2 r j)

/-- The embedding product at `(r, d)`: the sum over the bins. -/
theorem embed_at (lhs : FVec Ideal S4096x100 .bf16) (rhs : FVec Ideal S100x512 .bf16) (r : Fin 4096) (d : Fin 512) :
    matmul dot_S4096x100_S100x512_S4096x512_1_0_0_1_n_n none lhs rhs (constant (F := Ideal) S4096x512 .f32 0x00000000#32) (ix2 r d)
      = ∑ k : Fin 100, lhs (ix2 r k) * rhs (ix2 k d) := by
  refine (Ideal.matmul_constant_zero_apply dot_S4096x100_S100x512_S4096x512_1_0_0_1_n_n none lhs rhs (ix2 r d)).trans ?_
  exact Cert.PlainDot.sum_eq dot_S4096x100_S100x512_S4096x512_1_0_0_1_n_n rfl rfl
    (fun i q => by
      unfold DotDims.lhsIdx
      rw [dif_neg (show ¬(0 : Fin S4096x100.rank) ∈ dot_S4096x100_S100x512_S4096x512_1_0_0_1_n_n.lhsBatch by decide),
        dif_pos (show (0 : Fin S4096x100.rank) ∈ dot_S4096x100_S100x512_S4096x512_1_0_0_1_n_n.lhsNonContracting by decide)]
      rfl)
    (fun i q => dot_S4096x100_S100x512_S4096x512_1_0_0_1_n_n.lhsIdx_val_of_single rfl i q)
    (fun i q => dot_S4096x100_S100x512_S4096x512_1_0_0_1_n_n.rhsIdx_val_of_single rfl i q)
    (fun i q => by
      unfold DotDims.rhsIdx
      rw [dif_neg (show ¬(1 : Fin S100x512.rank) ∈ dot_S4096x100_S100x512_S4096x512_1_0_0_1_n_n.rhsBatch by decide),
        dif_pos (show (1 : Fin S100x512.rank) ∈ dot_S4096x100_S100x512_S4096x512_1_0_0_1_n_n.rhsNonContracting by decide)]
      rfl)
    lhs rhs (ix2 r d)

/-! ## The stages at an index -/

variable (r : Fin 4096)

local notation "P" => ofBlocks v2 v4 v6 v8 v10
local notation "xv" => v0 (ix2 r (0 : Fin 1))

theorem pre_at (k : Fin 100) :
    preV v0 v2 v4 (ix2 r k) = v0 (ix2 r (0 : Fin 1)) * v2 (ix2 (0 : Fin 1) k) + v4 (ix2 (0 : Fin 1) k) := by
  unfold preV
  rw [addf_apply, mulf_apply, broadcastTo_a1_ab_apply, broadcastTo_1b_ab_apply, broadcastTo_1b_ab_apply,
    shapeCast_self, shapeCast_self, shapeCast_self]

theorem hid_at (k : Fin 100) : hidV v0 v2 v4 (ix2 r k) = hidden P xv k := by
  unfold hidV
  rw [select_apply, cmpf_apply, mulf_apply, broadcast_apply, broadcast_apply, pre_at]
  rfl

theorem logit_at (j : Fin 100) : logitV v0 v2 v4 v6 v8 (ix2 r j) = logit P xv j := by
  unfold logitV
  rw [addf_apply, mulf_apply, broadcast_apply, addf_apply, hid_at v0 v2 v4 v6 v8 v10 r j, mix_at, broadcastTo_1b_ab_apply,
    shapeCast_self, shapeCast_self]
  have hs : ∀ k : Fin 100, truncf .bf16 (hidV v0 v2 v4) bitsLt_bf16_f32 (ix2 r k) * v6 (ix2 k j) = hidden P xv k * (P).W j k :=
    fun k => by rw [truncf_apply, hid_at v0 v2 v4 v6 v8 v10 r k]; rfl
  simp only [hs]
  rfl

theorem top_at : topV v0 v2 v4 v6 v8 (ix1 r) = top P xv := by
  unfold topV
  refine (Ideal.multiReduction_maximumf_single (logitV v0 v2 v4 v6 v8) 0xFF800000#32 reduces_S4096x100_S4096 (.inl rfl) rfl
    (ix1 r)).trans ?_
  unfold top
  refine Finset.fold_congr fun (k : Fin 100) _ => ?_
  have e : (reduces_S4096x100_S4096 : S4096x100.Reduces [1] S4096).lift (ix1 r) k = ix2 r k := funext fun a => by
    match a with | ⟨0, _⟩ => rfl | ⟨1, _⟩ => rfl
  show logitV v0 v2 v4 v6 v8 ((reduces_S4096x100_S4096 : S4096x100.Reduces [1] S4096).lift (ix1 r) k) = _
  rw [e, logit_at v0 v2 v4 v6 v8 v10 r k]

theorem expo_at (j : Fin 100) : expoV v0 v2 v4 v6 v8 (ix2 r j) = expo P xv j := by
  unfold expoV
  show Ideal.exp (subf (logitV v0 v2 v4 v6 v8)
    (broadcastTo S4096x100 (shapeCast S4096x1 (topV v0 v2 v4 v6 v8) shapeCasts_S4096_S4096x1) broadcasts_S4096x1_S4096x100) (ix2 r j)) = _
  rw [subf_apply, logit_at v0 v2 v4 v6 v8 v10 r j, broadcastTo_a1_ab_apply, shapeCast_a_a1_apply, top_at v0 v2 v4 v6 v8 v10 r]
  rfl

theorem mass_at : massV v0 v2 v4 v6 v8 (ix1 r) = mass P xv := by
  unfold massV
  refine (Ideal.multiReduction_add_single (expoV v0 v2 v4 v6 v8) 0x00000000#32 reduces_S4096x100_S4096 (.inl rfl) rfl
    (ix1 r)).trans ?_
  unfold mass
  refine Finset.sum_congr rfl fun (k : Fin 100) _ => ?_
  have e : (reduces_S4096x100_S4096 : S4096x100.Reduces [1] S4096).lift (ix1 r) k = ix2 r k := funext fun a => by
    match a with | ⟨0, _⟩ => rfl | ⟨1, _⟩ => rfl
  rw [e, expo_at v0 v2 v4 v6 v8 v10 r k]

theorem share_at (k : Fin 100) : shareV v0 v2 v4 v6 v8 (ix2 r k) = share P xv k := by
  unfold shareV
  rw [divf_apply, expo_at v0 v2 v4 v6 v8 v10 r k, broadcastTo_a1_ab_apply, shapeCast_a_a1_apply, mass_at v0 v2 v4 v6 v8 v10 r]
  rfl

/-- What the body stores, at `(r, d)`: column `d` of the row of the scalar at `(r, 0)`. -/
theorem pay_at (d : Fin 512) : k0_pay1 (F := Ideal) v0 v2 v4 v6 v8 v10 (ix2 r d) = blend P xv d := by
  rw [pay_eq]
  unfold outV
  rw [embed_at, shapeCast_self]
  unfold blend
  refine Finset.sum_congr rfl fun k _ => ?_
  rw [truncf_apply, share_at v0 v2 v4 v6 v8 v10 r k]
  rfl

end Cert.KernelIdeal.BlockValue

end
-- ==== Proof.KernelArray.lean ====
/-
  From the kernel's blocks to its whole result.

  The grid has 16 points. Point `t` reads rows `4096 t … 4096 t + 4095` of the column of scalars and all of each
  weight array, and writes rows `4096 t … 4096 t + 4095` of the `[65536, 512]` array; the sixteen row bands tile the
  array, so after the run the array is the row function `SoftBin.rows` of the column of scalars and of the weights as
  the region finds them. The host lines before the region only re-lay the arguments (a reshape of `x`, transposes of
  the two weight matrices, reshapes of the biases, format changes that are the identity on extended reals), and the host
  line after it reshapes `[65536, 512]` to `[8, 8192, 512]`: row `8192 b + s` becomes `(b, s)`. Hence the kernel's
  result is `SoftBin.result` of the argument arrays.
-/
import proofs.«173090_j62749472195319_2_alg».proof.Proof.Gen.KernelIdeal.Frame
import proofs.«173090_j62749472195319_2_alg».proof.Proof.KernelRows
import Idealize.ShloMosaic.Lib.Pipeline.Value
import Idealize.ShloMosaic.Lib.ValueLayout
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Cert.SoftBin Cert.KernelIdeal.BlockValue
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl

/-- The index maps over the grid: the column of scalars moves with the output band, every weight array is read
    whole at every point, the output has one band per point and no second block index. -/
theorem idx_facts : ∀ t : Fin cfg0.N,
    win0_0.index t (0 : Fin 2) = win0_6.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 15 :=
  (by decide +kernel : ∀ t : Fin grid0.N, _)

/-- Every band is some point's. -/
theorem idx_onto : ∀ q : Fin 16, ∃ t : Fin cfg0.N, win0_6.index t = ![q.val, 0] :=
  (by decide +kernel : ∀ q : Fin 16, ∃ t : Fin grid0.N, win0_6.index t = ![q.val, 0])

/-! ## The input blocks read off the arrays -/

/-- Row `r` of point `t`'s block of the column of scalars is row `4096 * band + r` of the column. -/
theorem read_scalar (c : Dev nD) (t : Fin cfg0.N) (r : Fin 4096) (R : Fin 65536)
    (hR : R.val = win0_6.index t (0 : Fin 2) * 4096 + r.val) :
    iblk m c 0 t (ix2 r (0 : Fin 1)) = V m c main_v0 (ix2 R (0 : Fin 1)) := by
  obtain ⟨e0, e1, -⟩ := idx_facts t
  show V m c main_v0 (((cfg0.win 0).blk t).view.emb (ix2 r (0 : Fin 1))) = V m c main_v0 (ix2 R (0 : Fin 1))
  refine congrArg (V m c main_v0) (funext fun a => Fin.ext ?_)
  match a with
  | ⟨0, _⟩ => show win0_0.index t (0 : Fin 2) * 4096 + 1 * r.val = R.val; omega
  | ⟨1, _⟩ => show win0_0.index t (1 : Fin 2) * 1 + 1 * 0 = 0; omega

/-- A weight array's block at any point is the whole array. -/
theorem read_w1 (c : Dev nD) (t : Fin cfg0.N) : iblk m c 1 t = V m c main_v1 := by
  obtain ⟨-, -, e0, e1, -⟩ := idx_facts t
  funext z
  show V m c main_v1 (((cfg0.win 1).blk t).view.emb z) = V m c main_v1 z
  refine congrArg (V m c main_v1) (funext fun a => Fin.ext ?_)
  match a with
  | ⟨0, _⟩ => show win0_1.index t (0 : Fin 2) * 1 + 1 * (z 0).val = (z 0).val; omega
  | ⟨1, _⟩ => show win0_1.index t (1 : Fin 2) * 100 + 1 * (z 1).val = (z 1).val; omega

theorem read_b1 (c : Dev nD) (t : Fin cfg0.N) : iblk m c 2 t = V m c main_v2 := by
  obtain ⟨-, -, -, -, e0, e1, -⟩ := idx_facts t
  funext z
  show V m c main_v2 (((cfg0.win 2).blk t).view.emb z) = V m c main_v2 z
  refine congrArg (V m c main_v2) (funext fun a => Fin.ext ?_)
  match a with
  | ⟨0, _⟩ => show win0_2.index t (0 : Fin 2) * 1 + 1 * (z 0).val = (z 0).val; omega
  | ⟨1, _⟩ => show win0_2.index t (1 : Fin 2) * 100 + 1 * (z 1).val = (z 1).val; omega

theorem read_w2 (c : Dev nD) (t : Fin cfg0.N) : iblk m c 3 t = V m c main_v5 := by
  obtain ⟨-, -, -, -, -, -, e0, e1, -⟩ := idx_facts t
  funext z
  show V m c main_v5 (((cfg0.win 3).blk t).view.emb z) = V m c main_v5 z
  refine congrArg (V m c main_v5) (funext fun a => Fin.ext ?_)
  match a with
  | ⟨0, _⟩ => show win0_3.index t (0 : Fin 2) * 100 + 1 * (z 0).val = (z 0).val; omega
  | ⟨1, _⟩ => show win0_3.index t (1 : Fin 2) * 100 + 1 * (z 1).val = (z 1).val; omega

theorem read_b2 (c : Dev nD) (t : Fin cfg0.N) : iblk m c 4 t = V m c main_v3 := by
  obtain ⟨-, -, -, -, -, -, -, -, e0, e1, -⟩ := idx_facts t
  funext z
  show V m c main_v3 (((cfg0.win 4).blk t).view.emb z) = V m c main_v3 z
  refine congrArg (V m c main_v3) (funext fun a => Fin.ext ?_)
  match a with
  | ⟨0, _⟩ => show win0_4.index t (0 : Fin 2) * 1 + 1 * (z 0).val = (z 0).val; omega
  | ⟨1, _⟩ => show win0_4.index t (1 : Fin 2) * 100 + 1 * (z 1).val = (z 1).val; omega

theorem read_emb (c : Dev nD) (t : Fin cfg0.N) : iblk m c 5 t = V m c main_v6 := by
  obtain ⟨-, -, -, -, -, -, -, -, -, -, e0, e1, -⟩ := idx_facts t
  funext z
  show V m c main_v6 (((cfg0.win 5).blk t).view.emb z) = V m c main_v6 z
  refine congrArg (V m c main_v6) (funext fun a => Fin.ext ?_)
  match a with
  | ⟨0, _⟩ => show win0_5.index t (0 : Fin 2) * 100 + 1 * (z 0).val = (z 0).val; omega
  | ⟨1, _⟩ => show win0_5.index t (1 : Fin 2) * 512 + 1 * (z 1).val = (z 1).val; omega

/-! ## One band -/

/-- The array the region writes, as one function of the arrays it reads. -/
def band (a0 : S65536x1.Idx → EReal) (a1 a2 : S1x100.Idx → EReal) (a3 : S100x100.Idx → EReal) (a4 : S1x100.Idx → EReal)
    (a5 : S100x512.Idx → EReal) : S65536x512.Idx → EReal :=
  rows a0 (ofBlocks a1 a2 a3 a4 a5)

/-- What a body stores at `y` of its block is the array function at index `i`, when `i` is `y` moved down by `q` bands,
    the block of scalars is band `q` of the column, and the weight blocks are the whole weight arrays. -/
theorem stored_eq (a0 : S65536x1.Idx → EReal) (a1 a2 : S1x100.Idx → EReal) (a3 : S100x100.Idx → EReal)
    (a4 : S1x100.Idx → EReal) (a5 : S100x512.Idx → EReal)
    (x0 : FVec Ideal S4096x1 .f32) (x1 x2 : FVec Ideal S1x100 .f32) (x3 : FVec Ideal S100x100 .bf16)
    (x4 : FVec Ideal S1x100 .f32) (x5 : FVec Ideal S100x512 .bf16) (q : Nat) (i : S65536x512.Idx) (y : S4096x512.Idx)
    (hi0 : (i 0).val = q * 4096 + (y 0).val) (hi1 : (i 1).val = (y 1).val)
    (h0 : ∀ (r : Fin 4096) (R : Fin 65536), R.val = q * 4096 + r.val → x0 (ix2 r (0 : Fin 1)) = a0 (ix2 R (0 : Fin 1)))
    (h1 : x1 = a1) (h2 : x2 = a2) (h3 : x3 = a3) (h4 : x4 = a4) (h5 : x5 = a5) :
    k0_pay1 (F := Ideal) x0 x1 x2 x3 x4 x5 y = band a0 a1 a2 a3 a4 a5 i := by
  subst h1 h2 h3 h4 h5
  obtain ⟨r, d, rfl⟩ : ∃ (r : Fin 4096) (d : Fin 512), y = ix2 r d := ⟨y 0, y 1, eq_ix2 y⟩
  obtain ⟨R, D, rfl⟩ : ∃ (R : Fin 65536) (D : Fin 512), i = ix2 R D := ⟨i 0, i 1, eq_ix2 i⟩
  have hD : D = d := Fin.ext hi1
  subst hD
  rw [pay_at, h0 r R hi0]
  rfl

/-- What point `t` writes back is band `t` of the array function of the arrays as the region finds them. -/
theorem flushed_eq (c : Dev nD) (t : Fin cfg0.N) :
    (dats m 0 c).flushed 6 t = ((cfg0.win 6).blk t).view.read (Elt Ideal)
      (band (V m c main_v0) (V m c main_v1) (V m c main_v2) (V m c main_v5) (V m c main_v3) (V m c main_v6)) := by
  show (cfg0.win 6).cut (grid0.coords t) ((dats m 0 c).after 6 t) = _
  rw [after0_6]
  unfold out0_6
  rw [View.canon_unit_zero zeros2]
  simp only [View.ld_unit_zero (S := S4096x1) zeros2, View.ld_unit_zero (S := S1x100) zeros2,
    View.ld_unit_zero (S := S100x100) zeros2, View.ld_unit_zero (S := S100x512) zeros2]
  obtain ⟨-, -, -, -, -, -, -, -, -, -, -, -, e1, -⟩ := idx_facts t
  funext y
  refine stored_eq (V m c main_v0) (V m c main_v1) (V m c main_v2) (V m c main_v5) (V m c main_v3) (V m c main_v6)
    (iblk m c 0 t) (iblk m c 1 t) (iblk m c 2 t) (iblk m c 3 t) (iblk m c 4 t) (iblk m c 5 t)
    (win0_6.index t (0 : Fin 2)) (((cfg0.win 6).blk t).view.emb y) y ?_ ?_ (fun r R hR => read_scalar m c t r R hR)
    (read_w1 m c t) (read_b1 m c t) (read_w2 m c t) (read_b2 m c t) (read_emb m c t)
  · show win0_6.index t (0 : Fin 2) * 4096 + 1 * (y 0).val = win0_6.index t (0 : Fin 2) * 4096 + (y 0).val
    omega
  · show win0_6.index t (1 : Fin 2) * 512 + 1 * (y 1).val = (y 1).val
    omega

/-- An index of the array is in point `t`'s band iff each coordinate is in the band's range. -/
theorem mem_band (t : Fin cfg0.N) (i : S65536x512.Idx) :
    i ∈ ((cfg0.win 6).blk t).view.set ↔ ∀ a : Fin 2, win0_6.index t a * S4096x512.size a ≤ (i a).val
      ∧ (i a).val < win0_6.index t a * S4096x512.size a + S4096x512.size a := by
  show i ∈ ((View.whole main_v7).slice (win0_6.rect t)).set ↔ _
  rw [View.set_slice_whole, Rect.mem_set_unit]
  exact Iff.rfl

/-- The sixteen bands cover the array: row `R` is in band `R / 4096`. -/
theorem bands_cover (i : S65536x512.Idx) :
    ∃ t : Fin cfg0.N, (cfg0.win 6).flush t = true ∧ i ∈ ((cfg0.win 6).blk t).view.set := by
  have hi0 : (i 0).val < 65536 := (i 0).isLt
  have hi1 : (i 1).val < 512 := (i 1).isLt
  obtain ⟨t, ht⟩ := idx_onto ⟨(i 0).val / 4096, by omega⟩
  have q0 : win0_6.index t (0 : Fin 2) = (i 0).val / 4096 := congrFun ht 0
  have q1 : win0_6.index t (1 : Fin 2) = 0 := congrFun ht 1
  refine ⟨t, flush0_6 t, ?_⟩
  rw [mem_band]
  intro a
  match a with
  | ⟨0, _⟩ =>
    show win0_6.index t (0 : Fin 2) * 4096 ≤ (i 0).val ∧ (i 0).val < win0_6.index t (0 : Fin 2) * 4096 + 4096
    omega
  | ⟨1, _⟩ =>
    show win0_6.index t (1 : Fin 2) * 512 ≤ (i 1).val ∧ (i 1).val < win0_6.index t (1 : Fin 2) * 512 + 512
    omega

/-- The array after the run. -/
theorem final (c : Dev nD) : (dats m 0 c).arrAt 6 cfg0.N
    = band (V m c main_v0) (V m c main_v1) (V m c main_v2) (V m c main_v5) (V m c main_v3) (V m c main_v6) :=
  (dats m 0 c).arrAt_eq_of_cover 6 _ (fun t _ => flushed_eq m c t) bands_cover

end Cert.KernelIdeal.ArrayValue

end
-- ==== Proof.KernelResult.lean ====
/-
  The kernel's program computes the row function of the argument arrays.

  Around the region the host only re-lays arrays. Before it: `x` `[8, 8192, 1]` is read as a column `[65536, 1]`
  (row `8192 b + s` is `(b, s, 0)`); `w1` `[100, 1]` is transposed to a row; the two biases become rows; `w2` is
  transposed, so that the matrix the body contracts over its rows holds `w2 (j, k)` at `(k, j)`; the two format changes
  are the identity on extended reals. So the weights the body sees are the weights the reference reads
  (`weights_eq`). After the region the `[65536, 512]` array is read as `[8, 8192, 512]`, again row `8192 b + s` as
  `(b, s)`. With the region's array from `ArrayValue.final`, the program's result is `SoftBin.result`.
-/
import proofs.«173090_j62749472195319_2_alg».proof.Proof.KernelArray

noncomputable section

namespace Cert.KernelIdeal.ArrayValue

open Cert.KernelIdeal Cert.KernelIdeal.Gen Idealize.ShloMosaic Idealize.ShloMosaic.TcCoe Idealize.SL.Sem
open Idealize.ShloMosaic.ValueIdx Cert.SoftBin Cert.KernelIdeal.BlockValue Idealize.ShloMosaic.StableHlo
open Idealize.ShloMosaic.Pipeline (Dat)

variable (m : (ℓ : Loc nD τ sig) → Buf (Elt Ideal) ℓ) (ρ : Dev nD → PrngReg)

/-! ## The arrays the region finds -/

theorem V_scalars (c : Dev nD) : (V m c main_v0 : S65536x1.Idx → EReal)
    = shapeCast S65536x1 (m ((c : Thread nD τ).loc main_arg0)) shapeCasts_S8x8192x1_S65536x1 := by
  show StableHlo.after hostOps0 (fun b => m (c, b)) (Proc.devRef .tc main_v0) = _
  after_results <;> rfl

theorem V_w1 (c : Dev nD) : (V m c main_v1 : S1x100.Idx → EReal)
    = transpose S1x100 [1, 0] (m ((c : Thread nD τ).loc main_arg1)) transposes_S100x1_S1x100_1_0 := by
  show StableHlo.after hostOps0 (fun b => m (c, b)) (Proc.devRef .tc main_v1) = _
  after_results <;> rfl

theorem V_b1 (c : Dev nD) : (V m c main_v2 : S1x100.Idx → EReal)
    = shapeCast S1x100 (m ((c : Thread nD τ).loc main_arg2)) shapeCasts_S100_S1x100 := by
  show StableHlo.after hostOps0 (fun b => m (c, b)) (Proc.devRef .tc main_v2) = _
  after_results <;> rfl

theorem V_b2 (c : Dev nD) : (V m c main_v3 : S1x100.Idx → EReal)
    = shapeCast S1x100 (m ((c : Thread nD τ).loc main_arg4)) shapeCasts_S100_S1x100 := by
  show StableHlo.after hostOps0 (fun b => m (c, b)) (Proc.devRef .tc main_v3) = _
  after_results <;> rfl

theorem V_w2 (c : Dev nD) : (V m c main_v5 : S100x100.Idx → EReal)
    = truncf (F := Ideal) (φ := .f32) .bf16
        (transpose S100x100 [1, 0] (m ((c : Thread nD τ).loc main_arg3)) transposes_S100x100_S100x100_1_0) bitsLt_bf16_f32 := by
  show StableHlo.after hostOps0 (fun b => m (c, b)) (Proc.devRef .tc main_v5) = _
  after_results <;> rfl

theorem V_emb (c : Dev nD) : (V m c main_v6 : S100x512.Idx → EReal)
    = truncf (F := Ideal) (φ := .f32) .bf16 (m ((c : Thread nD τ).loc main_arg5)) bitsLt_bf16_f32 := by
  show StableHlo.after hostOps0 (fun b => m (c, b)) (Proc.devRef .tc main_v6) = _
  after_results <;> rfl

/-! ## The weights the body sees are the weights the reference reads -/

theorem weights_eq (a1 : FVec Ideal S100x1 .f32) (a2 : FVec Ideal S100 .f32) (a3 : FVec Ideal S100x100 .f32)
    (a4 : FVec Ideal S100 .f32) (a5 : FVec Ideal S100x512 .f32) :
    ofBlocks (transpose S1x100 [1, 0] a1 transposes_S100x1_S1x100_1_0) (shapeCast S1x100 a2 shapeCasts_S100_S1x100)
        (truncf .bf16 (transpose S100x100 [1, 0] a3 transposes_S100x100_S100x100_1_0) bitsLt_bf16_f32)
        (shapeCast S1x100 a4 shapeCasts_S100_S1x100) (truncf .bf16 a5 bitsLt_bf16_f32)
      = ofArrays a1 a2 a3 a4 a5 := by
  unfold ofBlocks ofArrays
  congr 1
  · funext k; exact transpose_ix2_apply a1 transposes_S100x1_S1x100_1_0 (0 : Fin 1) k
  · funext k; exact shapeCast_a_1a_apply a2 shapeCasts_S100_S1x100 (0 : Fin 1) k
  · funext j k
    rw [truncf_apply]
    exact transpose_ix2_apply a3 transposes_S100x100_S100x100_1_0 k j
  · funext j; exact shapeCast_a_1a_apply a4 shapeCasts_S100_S1x100 (0 : Fin 1) j

/-! ## The two reshapes -/

/-- The column of scalars at row `8192 b + s` is `x (b, s, 0)`. -/
theorem scalar_at (a0 : FVec Ideal S8x8192x1 .f32) (b : Fin 8) (s : Fin 8192) (R : Fin 65536) (hR : R.val = b.val * 8192 + s.val) :
    shapeCast S65536x1 a0 shapeCasts_S8x8192x1_S65536x1 (ix2 R (0 : Fin 1)) = a0 (ix3 b s (0 : Fin 1)) :=
  shapeCast_apply a0 shapeCasts_S8x8192x1_S65536x1 (ix2 R (0 : Fin 1)) (ix3 b s (0 : Fin 1)) (by
    rw [Shape.rowMajor_val_three, Shape.rowMajor_val_two]
    show (b.val * 8192 + s.val) * 1 + 0 = R.val * 1 + 0
    omega)

/-- The row function over the flattened column, read as `[8, 8192, 512]`, is the row function over `x`. -/
theorem rows_reshaped (a0 : FVec Ideal S8x8192x1 .f32) (Q : Weights) :
    shapeCast S8x8192x512 (rows (shapeCast S65536x1 a0 shapeCasts_S8x8192x1_S65536x1) Q) shapeCasts_S65536x512_S8x8192x512
      = result a0 Q := by
  funext i
  obtain ⟨b, s, d, rfl⟩ : ∃ (b : Fin 8) (s : Fin 8192) (d : Fin 512), i = ix3 b s d := ⟨i 0, i 1, i 2, eq_ix3 i⟩
  have hb : b.val < 8 := b.isLt
  have hs : s.val < 8192 := s.isLt
  refine (shapeCast_apply _ shapeCasts_S65536x512_S8x8192x512 (ix3 b s d)
    (ix2 (⟨b.val * 8192 + s.val, by omega⟩ : Fin 65536) d) (by
      rw [Shape.rowMajor_val_three, Shape.rowMajor_val_two]
      show (b.val * 8192 + s.val) * 512 + d.val = (b.val * 8192 + s.val) * 512 + d.val
      rfl)).trans ?_
  rw [rows_ix2, result_ix3, scalar_at a0 b s _ rfl]

/-! ## The program's result -/

/-- The host line after the region, over the region's array. -/
theorem tail_eq (c : Dev nD) :
    Pipeline.afterTail₀ cfgs (dats m) 0 (V0 m) [hostOps1] c main_v8
      = result (m ((c : Thread nD τ).loc main_arg0))
          (ofArrays (m ((c : Thread nD τ).loc main_arg1)) (m ((c : Thread nD τ).loc main_arg2))
            (m ((c : Thread nD τ).loc main_arg3)) (m ((c : Thread nD τ).loc main_arg4)) (m ((c : Thread nD τ).loc main_arg5))) := by
  have key : Pipeline.withArrays (cfgs 0).spec c (V0 m c) (fun w => (dats m 0 c).arrAt w (cfgs 0).N) (Proc.devRef .tc main_v7)
      = band (V m c main_v0) (V m c main_v1) (V m c main_v2) (V m c main_v5) (V m c main_v3) (V m c main_v6) :=
    (Pipeline.withArrays_arr spec0 launch0.win.arr_inj c _ _ 6).trans (final m c)
  unfold Pipeline.afterTail₀
  show StableHlo.after hostOps1 _ (Proc.devRef .tc main_v8) = _
  after_results
  show shapeCast S8x8192x512 (Pipeline.withArrays (cfgs 0).spec c (V0 m c) (fun w => (dats m 0 c).arrAt w (cfgs 0).N)
    (Proc.devRef .tc main_v7)) shapeCasts_S65536x512_S8x8192x512 = _
  rw [key, V_scalars, V_w1, V_b1, V_b2, V_w2, V_emb]
  unfold band
  rw [weights_eq]
  exact rows_reshaped _ _

/-- Every weakly fair execution of the kernel's program ends with its result at the row function of the argument arrays,
    the arguments unchanged. -/
theorem run : θ_run defs (onTc (τ := τ) (main (F := Ideal))) ⟨m, fun _ => 0, ρ⟩ fun r => ∀ c : Dev nD,
      r.2.mem ((c.tc : Thread nD τ).loc main_v8)
        = result (m ((c.tc : Thread nD τ).loc main_arg0))
            (ofArrays (m ((c.tc : Thread nD τ).loc main_arg1)) (m ((c.tc : Thread nD τ).loc main_arg2))
              (m ((c.tc : Thread nD τ).loc main_arg3)) (m ((c.tc : Thread nD τ).loc main_arg4))
              (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.ArrayValue

end
-- ==== Proof.lean ====
/-
  The certificate's five claims.

  The kernel spreads each scalar of `x` over 100 bins (an affine map and a leaky rectifier), mixes the bins with a
  100 x 100 matrix, a bias and a residual, takes a softmax over the bins and returns the softmax-weighted combination of
  100 embedding rows; the reference does the same with jnp operations. On the extended reals both are the one function
  `SoftBin.result` of the argument arrays (Proof/SoftBin.lean): for the reference by reading its run one stage at a time
  (Proof/RefRows.lean), for the kernel by reading what a grid point stores (Proof/KernelRows.lean), tiling the sixteen row
  bands (Proof/KernelArray.lean) and undoing the host's re-layouts around the region (Proof/KernelResult.lean). No step
  moves a factor across a sum or cancels anything, so the finiteness of the inputs is never used.
  The three frames are the generated frame runs; the idealization rewrote nothing, so `preserves` is `True`.
-/
import proofs.«173090_j62749472195319_2_alg».proof.Defs
import proofs.«173090_j62749472195319_2_alg».proof.Proof.Gen.Kernel
import proofs.«173090_j62749472195319_2_alg».proof.Proof.Gen.Kernel.Frame
import proofs.«173090_j62749472195319_2_alg».proof.Proof.Gen.KernelIdeal
import proofs.«173090_j62749472195319_2_alg».proof.Proof.Gen.KernelIdeal.Frame
import proofs.«173090_j62749472195319_2_alg».proof.Proof.Gen.ReferenceIdeal
import proofs.«173090_j62749472195319_2_alg».proof.Proof.Gen.Pre_finite_inputs
import proofs.«173090_j62749472195319_2_alg».proof.Proof.Gen.ReferenceIdeal.Run
import proofs.«173090_j62749472195319_2_alg».proof.Proof.Gen.ReferenceIdeal.Read
import proofs.«173090_j62749472195319_2_alg».proof.Proof.RefRows
import proofs.«173090_j62749472195319_2_alg».proof.Proof.KernelResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with `SoftBin.result` of arguments that agree. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.result_eq, (hagree c).1, (hagree c).2.1,
    (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
